-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S32x10 1) : IVec S_ 1 :=
  let main_c_5 : IVec S_ 1 := constantI S_ 1 1#1
  let main_v17 : IVec S_ 1 := (fun x v => Host.reduce IntOp.andi x v reducesTo_S32x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S1048576x64 .f32) (main_arg1 : FVec F S64x32 .f32) (main_arg2 : FVec F S32 .f32) (main_arg3 : FVec F S32x10 .f32) (main_arg4 : FVec F S10 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x10 .f32 := Host.absf main_arg3
  let main_cst_4 : FVec F S_ .f32 := constant S_ .f32 0x7F800000#32
  let main_v15 : FVec F S32x10 .f32 := broadcastInDim S32x10 ![] bcast_S_S32x10 main_cst_4
  let main_v16 : IVec S32x10 1 := cmpf .olt main_v14 main_v15
  fn_part1 (F := F) main_arg4 main_v13 main_v16
-- ==== Kernel.lean ====
abbrev S1048576x64 : Shape := ⟨2, ![1048576, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x32 : Shape := ⟨2, ![1, 32]⟩
abbrev S1x10 : Shape := ⟨2, ![1, 10]⟩
abbrev S1048576x10 : Shape := ⟨2, ![1048576, 10]⟩
abbrev S16384x64 : Shape := ⟨2, ![16384, 64]⟩
abbrev S16384x10 : Shape := ⟨2, ![16384, 10]⟩
abbrev S2048x64 : Shape := ⟨2, ![2048, 64]⟩
abbrev S2048x32 : Shape := ⟨2, ![2048, 32]⟩
abbrev S2048x10 : Shape := ⟨2, ![2048, 10]⟩

abbrev nBuf : Space → Nat
  | .hbm => 8
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x10, .f32⟩
  | .hbm, ⟨4, _⟩ => ⟨S10, .f32⟩
  | .hbm, ⟨5, _⟩ => ⟨S1x32, .f32⟩
  | .hbm, ⟨6, _⟩ => ⟨S1x10, .f32⟩
  | .hbm, ⟨7, _⟩ => ⟨S1048576x10, .f32⟩
  | .local _ .vmem, ⟨0, _⟩ => ⟨S16384x64, .f32⟩
  | .local _ .vmem, ⟨1, _⟩ => ⟨S16384x64, .f32⟩
  | .local _ .vmem, ⟨2, _⟩ => ⟨S64x32, .f32⟩
  | .local _ .vmem, ⟨3, _⟩ => ⟨S1x32, .f32⟩
  | .local _ .vmem, ⟨4, _⟩ => ⟨S32x10, .f32⟩
  | .local _ .vmem, ⟨5, _⟩ => ⟨S1x10, .f32⟩
  | .local _ .vmem, ⟨6, _⟩ => ⟨S16384x10, .f32⟩
  | .local _ .vmem, ⟨7, _⟩ => ⟨S16384x10, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2048_i32 : BitVec 32 := 2048#32
  let v9 : BitVec 32 := Scalar.muli arg7 c2048_i32
  v9
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v9 : BitVec 32 := Scalar.muli arg7 c2048_i32
  let v10 : BitVec 32 := v9
  let v11 : Index := Scalar.indexCast v10
  let c0_8 : Index := 0#32
  ![v11.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v9 : BitVec 32 := Scalar.muli arg7 c2048_i32
  let v10 : BitVec 32 := v9
  let v23 : Index := Scalar.indexCast v10
  let c0_11 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  shapeCasts_S10_S1x10 : S10.ShapeCasts S1x10
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  inb_S32x10_S32x10_0_0 : ∀ a, (![0, 0] : Fin 2 → Nat) a + S32x10.size a ≤ S32x10.size a
  h_S32x10 : 0 < S32x10.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x10_S1x10_0_0 : ∀ a, (![0, 0] : Fin 2 → Nat) a + S1x10.size a ≤ S1x10.size a
  h_S1x10 : 0 < S1x10.numel
  shapeCasts_S1x10_S1x10 : S1x10.ShapeCasts S1x10
  h_S2048x64 : 0 < S2048x64.numel
  broadcasts_S1x32_S2048x32 : S1x32.Broadcasts S2048x32
  broadcasts_S1x10_S2048x10 : S1x10.Broadcasts S2048x10
  h_S2048x10 : 0 < S2048x10.numel
  dot_S2048x64_S64x32_S2048x32_1_0_0_1_n_n_wf : DotDims.WF S2048x64 S64x32 S2048x32 [1] [0] [0] [1] [] []
  dot_S2048x32_S32x10_S2048x10_1_0_0_1_n_n_wf : DotDims.WF S2048x32 S32x10 S2048x10 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x64.size a ≤ S16384x64.size a
  k0_off2_inb : ∀ k0_t1 : Fin k0_t1_loop.trips, ∀ a, (k0_off2 k0_t1) a + S2048x10.size a ≤ S16384x10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x10.size a ≤ S32x10.size a
  hwx0_3 : ∀ i : grid0.Coords, EltTy.bits .f32 = 32 ∨ (Rect.block (s := S32x10) S32x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x10.size a ≤ S1048576x10.size a
  hwx0_5 : ∀ i : grid0.Coords, EltTy.bits .f32 = 32 ∨ (Rect.block (s := S1048576x10) S16384x10.size (cc0_transform_5 i) (hinb0_5 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x10_S2048x10_1_0_0_1_n_n : DotDims S2048x32 S32x10 S2048x10 where
  lhsContracting := [1]
  rhsContracting := [0]
  lhsNonContracting := [0]
  rhsNonContracting := [1]
  lhsBatch := []
  rhsBatch := []
  wf := dot_S2048x32_S32x10_S2048x10_1_0_0_1_n_n_wf

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16384x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1048576x32 : Shape := ⟨2, ![1048576, 32]⟩
abbrev S1x32 : Shape := ⟨2, ![1, 32]⟩
abbrev S_ : Shape := ⟨0, ![]⟩
abbrev S1048576x10 : Shape := ⟨2, ![1048576, 10]⟩
abbrev S1x10 : Shape := ⟨2, ![1, 10]⟩

abbrev nBuf : Space → Nat
  | .hbm => 16
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x10, .f32⟩
  | .hbm, ⟨4, _⟩ => ⟨S10, .f32⟩
  | .hbm, ⟨5, _⟩ => ⟨S1048576x32, .f32⟩
  | .hbm, ⟨6, _⟩ => ⟨S1x32, .f32⟩
  | .hbm, ⟨7, _⟩ => ⟨S1048576x32, .f32⟩
  | .hbm, ⟨8, _⟩ => ⟨S1048576x32, .f32⟩
  | .hbm, ⟨9, _⟩ => ⟨S_, .f32⟩
  | .hbm, ⟨10, _⟩ => ⟨S1048576x32, .f32⟩
  | .hbm, ⟨11, _⟩ => ⟨S1048576x32, .f32⟩
  | .hbm, ⟨12, _⟩ => ⟨S1048576x10, .f32⟩
  | .hbm, ⟨13, _⟩ => ⟨S1x10, .f32⟩
  | .hbm, ⟨14, _⟩ => ⟨S1048576x10, .f32⟩
  | .hbm, ⟨15, _⟩ => ⟨S1048576x10, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  dot_S1048576x64_S64x32_S1048576x32_1_0_0_1_n_n_wf : DotDims.WF S1048576x64 S64x32 S1048576x32 [1] [0] [0] [1] [] []
  dot_S1048576x32_S32x10_S1048576x10_1_0_0_1_n_n_wf : DotDims.WF S1048576x32 S32x10 S1048576x10 [1] [0] [0] [1] [] []

variable [Facts₀]

def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x10_S1048576x10_1_0_0_1_n_n : DotDims S1048576x32 S32x10 S1048576x10 where
  lhsContracting := [1]
  rhsContracting := [0]
  lhsNonContracting := [0]
  rhsNonContracting := [1]
  lhsBatch := []
  rhsBatch := []
  wf := dot_S1048576x32_S32x10_S1048576x10_1_0_0_1_n_n_wf

class Facts : Prop extends Facts₀ where

variable [Facts]
-- ==== Proof.Spec.lean ====
/-
  The function both programs compute, on the extended reals: a perceptron with one hidden layer of 32 rectified
  units, applied to each row of a matrix with 64 columns.  For a row `r` and an output column `o`

      hidden r j = max (Σ k, x r k · W1 k j + β1 j) 0            (j < 32, k < 64)
      mlp r o    = Σ j, hidden r j · W2 j o + β2 o               (o < 10)

  where `0` is the f32 word of all zero bits.  The value at `(r, o)` depends on row `r` of `x` only: two matrices
  (of any two heights) that agree on one row give the same value there (`mlp_row`).  This is the whole bridge
  between a chunk of rows, the block of rows a grid point holds, and the full array.
-/
import Idealize.ShloMosaic.PureOps.Ideal
import Idealize.ShloMosaic.Lib.ValueIdx

noncomputable section

namespace Cert.Perceptron

open Idealize.ShloMosaic Idealize.ShloMosaic.ValueIdx

/-- Hidden unit `j` on row `r`: the row's inner product with column `j` of the first weight matrix, plus the bias, rectified
    against the zero word. -/
def hidden {R : Nat} (x : (⟨2, ![R, 64]⟩ : Shape).Idx → EReal) (W1 : (⟨2, ![64, 32]⟩ : Shape).Idx → EReal)
    (β1 : Fin 32 → EReal) (r : Fin R) (j : Fin 32) : EReal :=
  max ((∑ k : Fin 64, x (ix2 r k) * W1 (ix2 k j)) + β1 j) (Ideal.ofBits .f32 0x00000000#32)

/-- Output `o` on row `r`: the hidden units' inner product with column `o` of the second weight matrix, plus the bias. -/
def mlp {R : Nat} (x : (⟨2, ![R, 64]⟩ : Shape).Idx → EReal) (W1 : (⟨2, ![64, 32]⟩ : Shape).Idx → EReal)
    (β1 : Fin 32 → EReal) (W2 : (⟨2, ![32, 10]⟩ : Shape).Idx → EReal) (β2 : Fin 10 → EReal) (r : Fin R) (o : Fin 10) : EReal :=
  (∑ j : Fin 32, hidden x W1 β1 r j * W2 (ix2 j o)) + β2 o

/-- The value on a row reads that row only: if row `r'` of `x'` is row `r` of `x`, the two values agree. -/
theorem mlp_row {R R' : Nat} (x : (⟨2, ![R, 64]⟩ : Shape).Idx → EReal) (x' : (⟨2, ![R', 64]⟩ : Shape).Idx → EReal)
    (W1 : (⟨2, ![64, 32]⟩ : Shape).Idx → EReal) (β1 : Fin 32 → EReal) (W2 : (⟨2, ![32, 10]⟩ : Shape).Idx → EReal)
    (β2 : Fin 10 → EReal) (r : Fin R) (r' : Fin R') (o : Fin 10)
    (h : ∀ k : Fin 64, x' (ix2 r' k) = x (ix2 r k)) :
    mlp x' W1 β1 W2 β2 r' o = mlp x W1 β1 W2 β2 r o := by
  unfold mlp hidden
  simp only [h]

/-- The same with every operand replaced by an equal one: the form the blocks of a grid point are compared in. -/
theorem mlp_congr {R R' : Nat} (x : (⟨2, ![R, 64]⟩ : Shape).Idx → EReal) (x' : (⟨2, ![R', 64]⟩ : Shape).Idx → EReal)
    (W1 W1' : (⟨2, ![64, 32]⟩ : Shape).Idx → EReal) (β1 β1' : Fin 32 → EReal) (W2 W2' : (⟨2, ![32, 10]⟩ : Shape).Idx → EReal)
    (β2 β2' : Fin 10 → EReal) (r : Fin R) (r' : Fin R') (o : Fin 10)
    (hx : ∀ k : Fin 64, x' (ix2 r' k) = x (ix2 r k)) (hW1 : W1' = W1) (hβ1 : β1' = β1) (hW2 : W2' = W2) (hβ2 : β2' = β2) :
    mlp x' W1' β1' W2' β2' r' o = mlp x W1 β1 W2 β2 r o := by
  subst hW1 hβ1 hW2 hβ2
  exact mlp_row x x' W1' β1' W2' β2' r r' o hx

/-- THE RESULT, as one function of the five argument arrays: entry `(r, o)` of the [1048576, 10] result is the
    perceptron of `x` on row `r` at column `o`, the two biases given as vectors. -/
def net (x : (⟨2, ![1048576, 64]⟩ : Shape).Idx → EReal) (W1 : (⟨2, ![64, 32]⟩ : Shape).Idx → EReal)
    (b1 : (⟨1, ![32]⟩ : Shape).Idx → EReal) (W2 : (⟨2, ![32, 10]⟩ : Shape).Idx → EReal)
    (b2 : (⟨1, ![10]⟩ : Shape).Idx → EReal) : (⟨2, ![1048576, 10]⟩ : Shape).Idx → EReal :=
  fun i => mlp x W1 (fun j => b1 (ix1 j)) W2 (fun o => b2 (ix1 o)) (i 0) (i 1)

end Cert.Perceptron

end
-- ==== Proof.Payload.lean ====
/-
  What one trip of the kernel's loop stores, read at an index.  The stored value is computed from the chunk of 2048
  rows of `x` the trip loads and from the two weight matrices and the two bias rows held whole: a matrix product into
  a zero accumulator (the sum over the 64 columns), the bias row added to every row, the maximum with zero, a second
  matrix product into a zero accumulator (the sum over the 32 hidden units), the second bias row added.  The roundings
  to bf16 in front of the two products are the identity on the extended reals.  So entry `(p, q)` of the stored value
  is `mlp` of the chunk at row `p`, column `q`.
-/
import proofs.«171313_j22256520528694_2_alg».proof.Proof.Gen.KernelIdeal.Skeleton
import proofs.«171313_j22256520528694_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Perceptron

open Idealize.ShloMosaic Idealize.ShloMosaic.ValueIdx Cert.KernelIdeal Cert.KernelIdeal.Gen

/-! The two products' operand indices on the axes that are not summed over: the left operand's row is the result's row,
    the right operand's column is the result's column. -/

theorem dot1_apply_lhs0 (i : S2048x32.Idx) (q : dot_S2048x64_S64x32_S2048x32_1_0_0_1_n_n.contr.Idx) : (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
  rfl
theorem dot1_apply_rhs1 (i : S2048x32.Idx) (q : dot_S2048x64_S64x32_S2048x32_1_0_0_1_n_n.contr.Idx) : (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
  rfl
/-- The first product, into the zero accumulator, at row `p` and hidden unit `j`: the sum over the 64 columns. -/
theorem dot1_apply (A : FVec Ideal S2048x64 .bf16) (B : FVec Ideal S64x32 .bf16) (p : Fin 2048) (j : Fin 32) :
    matmul (F := Ideal) dot_S2048x64_S64x32_S2048x32_1_0_0_1_n_n none A B (constant (F := Ideal) S2048x32 .f32 0x00000000#32) (ix2 p j)
      = ∑ k : Fin 64, A (ix2 p k) * B (ix2 k j) := by
  simp only [matmul]
  rw [Ideal.matmul_constant_zero_apply, ← Equiv.sum_comp (contrEquiv1 dot_S2048x64_S64x32_S2048x32_1_0_0_1_n_n 64 rfl rfl).symm]
  refine Finset.sum_congr rfl fun k _ => ?_
  have hk := contrEquiv1_symm_val dot_S2048x64_S64x32_S2048x32_1_0_0_1_n_n 64 rfl rfl k
  have el : dot_S2048x64_S64x32_S2048x32_1_0_0_1_n_n.lhsIdx (ix2 p j) ((contrEquiv1 dot_S2048x64_S64x32_S2048x32_1_0_0_1_n_n 64 rfl rfl).symm k) = ix2 p k := funext fun a => Fin.ext (by
    match a with
    | ⟨0, _⟩ => exact dot1_apply_lhs0 _ _
    | ⟨1, _⟩ => exact (dot_S2048x64_S64x32_S2048x32_1_0_0_1_n_n.lhsIdx_val_of_single rfl _ _).trans hk)
  have er : dot_S2048x64_S64x32_S2048x32_1_0_0_1_n_n.rhsIdx (ix2 p j) ((contrEquiv1 dot_S2048x64_S64x32_S2048x32_1_0_0_1_n_n 64 rfl rfl).symm k) = ix2 k j := funext fun a => Fin.ext (by
    match a with
    | ⟨0, _⟩ => exact (dot_S2048x64_S64x32_S2048x32_1_0_0_1_n_n.rhsIdx_val_of_single rfl _ _).trans hk
    | ⟨1, _⟩ => exact dot1_apply_rhs1 _ _)
  rw [el, er]

theorem dot2_apply_lhs0 (i : S2048x10.Idx) (q : dot_S2048x32_S32x10_S2048x10_1_0_0_1_n_n.contr.Idx) : (dot_S2048x32_S32x10_S2048x10_1_0_0_1_n_n.lhsIdx i q 0).val = (i 0).val := by
  unfold DotDims.lhsIdx
  rw [dif_neg (show ¬(0 : Fin S2048x32.rank) ∈ dot_S2048x32_S32x10_S2048x10_1_0_0_1_n_n.lhsBatch by decide), dif_pos (show (0 : Fin S2048x32.rank) ∈ dot_S2048x32_S32x10_S2048x10_1_0_0_1_n_n.lhsNonContracting by decide)]
  rfl
theorem dot2_apply_rhs1 (i : S2048x10.Idx) (q : dot_S2048x32_S32x10_S2048x10_1_0_0_1_n_n.contr.Idx) : (dot_S2048x32_S32x10_S2048x10_1_0_0_1_n_n.rhsIdx i q 1).val = (i 1).val := by
  unfold DotDims.rhsIdx
  rw [dif_neg (show ¬(1 : Fin S32x10.rank) ∈ dot_S2048x32_S32x10_S2048x10_1_0_0_1_n_n.rhsBatch by decide), dif_pos (show (1 : Fin S32x10.rank) ∈ dot_S2048x32_S32x10_S2048x10_1_0_0_1_n_n.rhsNonContracting by decide)]
  rfl
/-- The second product, into the zero accumulator, at row `p` and output column `j`: the sum over the 32 hidden units. -/
theorem dot2_apply (A : FVec Ideal S2048x32 .bf16) (B : FVec Ideal S32x10 .bf16) (p : Fin 2048) (j : Fin 10) :
    matmul (F := Ideal) dot_S2048x32_S32x10_S2048x10_1_0_0_1_n_n none A B (constant (F := Ideal) S2048x10 .f32 0x00000000#32) (ix2 p j)
      = ∑ k : Fin 32, A (ix2 p k) * B (ix2 k j) := by
  simp only [matmul]
  rw [Ideal.matmul_constant_zero_apply, ← Equiv.sum_comp (contrEquiv1 dot_S2048x32_S32x10_S2048x10_1_0_0_1_n_n 32 rfl rfl).symm]
  refine Finset.sum_congr rfl fun k _ => ?_
  have hk := contrEquiv1_symm_val dot_S2048x32_S32x10_S2048x10_1_0_0_1_n_n 32 rfl rfl k
  have el : dot_S2048x32_S32x10_S2048x10_1_0_0_1_n_n.lhsIdx (ix2 p j) ((contrEquiv1 dot_S2048x32_S32x10_S2048x10_1_0_0_1_n_n 32 rfl rfl).symm k) = ix2 p k := funext fun a => Fin.ext (by
    match a with
    | ⟨0, _⟩ => exact dot2_apply_lhs0 _ _
    | ⟨1, _⟩ => exact (dot_S2048x32_S32x10_S2048x10_1_0_0_1_n_n.lhsIdx_val_of_single rfl _ _).trans hk)
  have er : dot_S2048x32_S32x10_S2048x10_1_0_0_1_n_n.rhsIdx (ix2 p j) ((contrEquiv1 dot_S2048x32_S32x10_S2048x10_1_0_0_1_n_n 32 rfl rfl).symm k) = ix2 k j := funext fun a => Fin.ext (by
    match a with
    | ⟨0, _⟩ => exact (dot_S2048x32_S32x10_S2048x10_1_0_0_1_n_n.rhsIdx_val_of_single rfl _ _).trans hk
    | ⟨1, _⟩ => exact dot2_apply_rhs1 _ _)
  rw [el, er]

/-- Entry `(p, q)` of the value a trip stores is the perceptron of the loaded chunk at row `p`, column `q`, with the
    biases read off the one row of each bias block. -/
theorem payload_apply (v0 : Vec Ideal S64x32 .f32) (v2 : Vec Ideal S32x10 .f32) (v4 : Vec Ideal S1x32 .f32)
    (v6 : Vec Ideal S1x10 .f32) (v12 : Vec Ideal S2048x64 .f32) (p : Fin 2048) (q : Fin 10) :
    k0_pay1 (F := Ideal) v0 v2 v4 v6 v12 (ix2 p q)
      = mlp v12 v0 (fun j => v4 (ix2 (0 : Fin 1) j)) v2 (fun o => v6 (ix2 (0 : Fin 1) o)) p q := by
  unfold k0_pay1 mlp hidden
  refine (addf_apply _ _ _).trans ?_
  refine congrArg₂ (· + ·) ?_ ?_
  · refine (dot2_apply _ _ p q).trans ?_
    refine Finset.sum_congr rfl fun j _ => ?_
    refine congrArg₂ (· * ·) ?_ rfl
    refine (maximumf_apply _ _ _).trans ?_
    refine congrArg₂ max ?_ rfl
    refine (addf_apply _ _ _).trans ?_
    refine congrArg₂ (· + ·) (dot1_apply _ _ p j) ?_
    exact (broadcastTo_1b_ab_apply _ _ p j).trans (congrFun (shapeCast_self v4 _) _)
  · exact (broadcastTo_1b_ab_apply _ _ p q).trans (congrFun (shapeCast_self v6 _) _)

end Cert.Perceptron

end
-- ==== Proof.Block.lean ====
/-
  The block of 16384 rows one grid point leaves in its output buffer.  The body runs eight trips; trip `k` loads rows
  2048·k … 2048·k + 2047 of the point's block of `x` and stores, at the same rows of the output block, the perceptron of
  that chunk.  A row of the chunk is a row of the block, and the perceptron on a row reads that row only, so every
  stored piece is the restriction to its rows of ONE function of the block's index: the perceptron of the whole block
  of `x` (`blockOut`).  The eight pieces tile the block, hence the block the point leaves is that function.
-/
import proofs.«171313_j22256520528694_2_alg».proof.Proof.Gen.KernelIdeal.Frame
import proofs.«171313_j22256520528694_2_alg».proof.Proof.Payload

set_option maxRecDepth 16384

noncomputable section

namespace Cert.Perceptron

open Idealize.ShloMosaic Idealize.ShloMosaic.TcCoe Idealize.ShloMosaic.ValueIdx Idealize.SL.Sem
open Cert.KernelIdeal Cert.KernelIdeal.Gen

/-- The perceptron of a block of 16384 rows, as a function of the output block's index: the biases are the one row of
    each bias block. -/
def blockOut (x0 : Vec Ideal S16384x64 .f32) (x1 : Vec Ideal S64x32 .f32) (x2 : Vec Ideal S1x32 .f32) (x3 : Vec Ideal S32x10 .f32) (x4 : Vec Ideal S1x10 .f32) : Vec Ideal S16384x10 .f32 :=
  fun y => mlp x0 x1 (fun j => x2 (ix2 (0 : Fin 1) j)) x3 (fun o => x4 (ix2 (0 : Fin 1) o)) (y 0) (y 1)

theorem zero_off : (![0, 0] : Fin 2 → Nat) = fun _ => 0 := funext fun a => by fin_cases a <;> rfl

/-- Row `p`, column `q` of a chunk of 2048 rows that starts at row 2048·k of a block of 16384 rows is the block's row
    2048·k + p, column `q`. -/
theorem chunk_emb {B : Nat} (off : Fin 2 → Nat) (k : Nat) (hoff : off = ![2048 * k, 0])
    (inb : ∀ a, off a + (![2048, B] : Fin 2 → Nat) a ≤ (⟨2, ![16384, B]⟩ : Shape).size a)
    (p : Fin 2048) (q : Fin B) (hr : 2048 * k + p.val < 16384) :
    (Rect.unit (s := ⟨2, ![16384, B]⟩) off ![2048, B] inb).emb (ix2 p q) = ix2 (⟨2048 * k + p.val, hr⟩ : Fin 16384) q := by
  subst hoff
  funext a; apply Fin.ext
  match a with
  | ⟨0, _⟩ => show 2048 * k + 1 * p.val = 2048 * k + p.val; omega
  | ⟨1, _⟩ => show 0 + 1 * q.val = q.val; omega

/-- The one piece trip `k` stores is the restriction of `blockOut` to its rectangle. -/
theorem trip_pieces (𝒱 : Variants) (c : Dev nD) (bd : Option 𝒱.V) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S16384x10 .f32) (harg6 : arg6.IsWhole)
    (x0 : Vec Ideal S16384x64 .f32) (x1 : Vec Ideal S64x32 .f32) (x2 : Vec Ideal S1x32 .f32) (x3 : Vec Ideal S32x10 .f32) (x4 : Vec Ideal S1x10 .f32) (k : Fin k0_t1_loop.trips) :
    ∀ pc ∈ tripL_k0_t1 (F := Ideal) 𝒱 c bd i arg1 harg1 arg2 harg2 arg3 harg3 arg4 harg4 arg5 harg5 arg6 harg6 x1 x3 x2 x4 (harg1.unread x0) k,
      ∀ y : pc.1.shape.Idx, pc.2 y = blockOut x0 x1 x2 x3 x4 (pc.1.emb y) := by
  have hk : k.val < 8 := Nat.lt_of_lt_of_le k.isLt k0_t1_abs.2.1
  unfold tripL_k0_t1 trip_k0_t1
  intro pc hpc
  obtain rfl := List.mem_singleton.mp hpc
  intro y
  obtain ⟨p, q, rfl⟩ : ∃ (p : Fin 2048) (q : Fin 10), y = ix2 p q := ⟨y 0, y 1, eq_ix2 y⟩
  have hr : 2048 * k.val + p.val < 16384 := by have := p.isLt; omega
  dsimp only
  refine (payload_apply _ _ _ _ _ p q).trans ?_
  rw [chunk_emb _ k.val (k0_off2_eq k) _ p q hr]
  unfold blockOut
  refine mlp_row x0 _ x1 _ x3 _ ⟨2048 * k.val + p.val, hr⟩ p q fun kk => ?_
  rw [View.readAt_eq_ld, harg1.read_unread]
  show x0 ((Rect.unit (s := S16384x64) (k0_off1 k) S2048x64.size (k0_off1_inb k)).emb (ix2 p kk)) = _
  rw [chunk_emb _ k.val (k0_off1_eq k) _ p kk hr]

/-- So is every piece of the trips before `n`. -/
theorem pb_pieces (c : Dev nD) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S16384x10 .f32) (harg6 : arg6.IsWhole)
    (x0 : Vec Ideal S16384x64 .f32) (x1 : Vec Ideal S64x32 .f32) (x2 : Vec Ideal S1x32 .f32) (x3 : Vec Ideal S32x10 .f32) (x4 : Vec Ideal S1x10 .f32) :
    ∀ n : Nat, ∀ pc ∈ pb_k0_t1 (F := Ideal) Variants.none c none i arg1 harg1 arg2 harg2 arg3 harg3 arg4 harg4 arg5 harg5 arg6 harg6 x1 x3 x2 x4 (harg1.unread x0) n,
      ∀ y : pc.1.shape.Idx, pc.2 y = blockOut x0 x1 x2 x3 x4 (pc.1.emb y)
  | 0 => by
    rw [pb_k0_t1.eq_1]
    intro pc hpc
    exact absurd hpc List.not_mem_nil
  | n + 1 => by
    rw [pb_k0_t1.eq_2]
    unfold pb_k0_t1Step
    split
    · rename_i h
      intro pc hpc
      rcases List.mem_append.mp hpc with hpc | hpc
      · exact trip_pieces Variants.none c none i arg1 harg1 arg2 harg2 arg3 harg3 arg4 harg4 arg5 harg5 arg6 harg6 x0 x1 x2 x3 x4 ⟨n, h⟩ pc hpc
      · exact pb_pieces c i arg1 harg1 arg2 harg2 arg3 harg3 arg4 harg4 arg5 harg5 arg6 harg6 x0 x1 x2 x3 x4 n pc hpc
    · exact pb_pieces c i arg1 harg1 arg2 harg2 arg3 harg3 arg4 harg4 arg5 harg5 arg6 harg6 x0 x1 x2 x3 x4 n

/-- The pieces the body's run leaves in the output buffer are the pieces of all the loop's trips, at the blocks the body
    loaded whole before the loop. -/
theorem run_pieces (c : Dev nD) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S16384x10 .f32) (harg6 : arg6.IsWhole)
    (x0 : Vec Ideal S16384x64 .f32) (x1 : Vec Ideal S64x32 .f32) (x2 : Vec Ideal S1x32 .f32) (x3 : Vec Ideal S32x10 .f32) (x4 : Vec Ideal S1x10 .f32) :
    (kernelRun0_A (F := Ideal) c i arg1 harg1 arg2 harg2 arg3 harg3 arg4 harg4 arg5 harg5 arg6 harg6 x0 x1 x2 x3 x4).1
      = pb_k0_t1 (F := Ideal) Variants.none c none i arg1 harg1 arg2 harg2 arg3 harg3 arg4 harg4 arg5 harg5 arg6 harg6 x1 x3 x2 x4 (harg1.unread x0) k0_t1_loop.trips := by
  unfold kernelRun0_A
  dsimp only
  simp only [View.readAt_eq_ld, harg2.read_unread, harg3.read_unread, harg4.read_unread, harg5.read_unread]
  rw [View.ld_unit_zero zero_off, View.ld_unit_zero zero_off, View.ld_unit_zero zero_off, View.ld_unit_zero zero_off]

/-- THE BLOCK A POINT LEAVES: the perceptron of the point's block of `x`, with the weights and biases it holds. -/
theorem block_eq (c : Dev nD) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x10 .f32) (harg4 : arg4.IsWhole) (arg5 : Memref sig .tc .vmem S1x10 .f32) (harg5 : arg5.IsWhole) (arg6 : Memref sig .tc .vmem S16384x10 .f32) (harg6 : arg6.IsWhole)
    (x0 : Vec Ideal S16384x64 .f32) (x1 : Vec Ideal S64x32 .f32) (x2 : Vec Ideal S1x32 .f32) (x3 : Vec Ideal S32x10 .f32) (x4 : Vec Ideal S1x10 .f32) :
    out0_A_5 (F := Ideal) c i arg1 harg1 arg2 harg2 arg3 harg3 arg4 harg4 arg5 harg5 arg6 harg6 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  funext y
  refine View.canon_apply_of_pieces (blockOut x0 x1 x2 x3 x4) _ ?_ y (cover0_A_5 c i arg1 harg1 arg2 harg2 arg3 harg3 arg4 harg4 arg5 harg5 arg6 harg6 x0 x1 x2 x3 x4 y)
  rw [run_pieces]
  exact pb_pieces c i arg1 harg1 arg2 harg2 arg3 harg3 arg4 harg4 arg5 harg5 arg6 harg6 x0 x1 x2 x3 x4 _

end Cert.Perceptron

end
-- ==== Proof.Array.lean ====
/-
  From the blocks to the array.  Grid point `t` (of 64) holds rows 16384·t … 16384·t + 16383 of `x` and of the result;
  the two weight matrices are held whole at every point, and so are the two biases, which the program has set up as
  [1, 32] and [1, 10] rows before the launch (a row's entry `(0, j)` is the bias vector's entry `j`).  The block a point
  leaves is the perceptron of its block of `x` (`block_eq`); a row of that block is a row of `x`, so what the point
  writes back is its block of ONE function of the result's index, `net` of the argument arrays.  The 64 blocks cover the
  result (row `r` is in block `r / 16384`), hence the result array ends holding `net`.
-/
import proofs.«171313_j22256520528694_2_alg».proof.Proof.Gen.KernelIdeal.Value
import proofs.«171313_j22256520528694_2_alg».proof.Proof.Block
import Idealize.ShloMosaic.Lib.ValueLayout
import Idealize.ShloMosaic.Lib.StableHlo.Run

set_option maxRecDepth 16384

noncomputable section

namespace Cert.Perceptron

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The six windows' block indices, decided over the 64 grid points: the block of `x` and the block of the result are
    block `t` along the rows; every other window stays at its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := Nat.lt_of_lt_of_le t.isLt (Nat.le_of_eq N_0)

/-- Row `r` of point `t`'s block of `x` is row 16384·t + r of `x`. -/
theorem blk_x (c : Dev nD) (t : Fin cfg0.N) (r : Fin 16384) (k : Fin 64) (hr : 16384 * t.val + r.val < 1048576) :
    iblk m c 0 t (ix2 r k) = V m c main_arg0 (ix2 (⟨16384 * t.val + r.val, hr⟩ : Fin 1048576) k) := by
  obtain ⟨f00, f01, _⟩ := index_facts t
  show V m c main_arg0 (((cfg0.win 0).blk t).view.emb (ix2 r k)) = _
  refine congrArg _ (funext fun ax => Fin.ext ?_)
  match ax with
  | ⟨0, _⟩ => show win0_0.index t (0 : Fin 2) * 16384 + 1 * r.val = 16384 * t.val + r.val; rw [f00]; omega
  | ⟨1, _⟩ => show win0_0.index t (1 : Fin 2) * 64 + 1 * k.val = k.val; rw [f01]; omega

/-- The first weight matrix is held whole at every point. -/
theorem blk_W1 (c : Dev nD) (t : Fin cfg0.N) : (iblk m c 1 t : S64x32.Idx → EReal) = V m c main_arg1 := by
  obtain ⟨_, _, f10, f11, _, _, f30, f31, _, _, _, _⟩ := index_facts t
  funext y
  obtain ⟨a, b, rfl⟩ : ∃ (a : Fin 64) (b : Fin 32), y = ix2 a b := ⟨y 0, y 1, eq_ix2 y⟩
  show V m c main_arg1 (((cfg0.win 1).blk t).view.emb (ix2 a b)) = V m c main_arg1 (ix2 a b)
  refine congrArg _ (funext fun ax => Fin.ext ?_)
  match ax with
  | ⟨0, _⟩ => show win0_1.index t (0 : Fin 2) * 64 + 1 * a.val = a.val; rw [f10]; omega
  | ⟨1, _⟩ => show win0_1.index t (1 : Fin 2) * 32 + 1 * b.val = b.val; rw [f11]; omega

/-- The second weight matrix is held whole at every point. -/
theorem blk_W2 (c : Dev nD) (t : Fin cfg0.N) : (iblk m c 3 t : S32x10.Idx → EReal) = V m c main_arg3 := by
  obtain ⟨_, _, f10, f11, _, _, f30, f31, _, _, _, _⟩ := index_facts t
  funext y
  obtain ⟨a, b, rfl⟩ : ∃ (a : Fin 32) (b : Fin 10), y = ix2 a b := ⟨y 0, y 1, eq_ix2 y⟩
  show V m c main_arg3 (((cfg0.win 3).blk t).view.emb (ix2 a b)) = V m c main_arg3 (ix2 a b)
  refine congrArg _ (funext fun ax => Fin.ext ?_)
  match ax with
  | ⟨0, _⟩ => show win0_3.index t (0 : Fin 2) * 32 + 1 * a.val = a.val; rw [f30]; omega
  | ⟨1, _⟩ => show win0_3.index t (1 : Fin 2) * 10 + 1 * b.val = b.val; rw [f31]; omega

/-- The first bias, set up as a [1, 32] row before the launch: entry `(0, j)` is the vector's entry `j`. -/
theorem bias1_entry (c : Dev nD) (j : Fin 32) : V m c main_v0 (ix2 (0 : Fin 1) j) = (m ((c : Thread nD τ).loc main_arg2)) (ix1 j) := by
  have e : (V m c main_v0 : S1x32.Idx → EReal) = shapeCast S1x32 (m ((c : Thread nD τ).loc main_arg2)) shapeCasts_S32_S1x32 := by
    dsimp only [V, hostOps0]; after_results; rfl
  rw [e]
  exact shapeCast_a_1a_apply _ _ 0 j

/-- The one row of the first bias block, at every point, is the first bias vector. -/
theorem blk_b1 (c : Dev nD) (t : Fin cfg0.N) :
    (fun j : Fin 32 => iblk m c 2 t (ix2 (0 : Fin 1) j)) = fun j => (m ((c : Thread nD τ).loc main_arg2)) (ix1 j) := by
  obtain ⟨_, _, _, _, f20, f21, _, _, f40, f41, _, _⟩ := index_facts t
  funext j
  refine Eq.trans ?_ (bias1_entry m c j)
  show V m c main_v0 (((cfg0.win 2).blk t).view.emb (ix2 (0 : Fin 1) j)) = V m c main_v0 (ix2 (0 : Fin 1) j)
  refine congrArg _ (funext fun ax => Fin.ext ?_)
  match ax with
  | ⟨0, _⟩ => show win0_2.index t (0 : Fin 2) * 1 + 1 * (0 : Fin 1).val = (0 : Fin 1).val; rw [f20]; rfl
  | ⟨1, _⟩ => show win0_2.index t (1 : Fin 2) * 32 + 1 * j.val = j.val; rw [f21]; omega

/-- The second bias, set up as a [1, 10] row before the launch: entry `(0, o)` is the vector's entry `o`. -/
theorem bias2_entry (c : Dev nD) (j : Fin 10) : V m c main_v1 (ix2 (0 : Fin 1) j) = (m ((c : Thread nD τ).loc main_arg4)) (ix1 j) := by
  have e : (V m c main_v1 : S1x10.Idx → EReal) = shapeCast S1x10 (m ((c : Thread nD τ).loc main_arg4)) shapeCasts_S10_S1x10 := by
    dsimp only [V, hostOps0]; after_results; rfl
  rw [e]
  exact shapeCast_a_1a_apply _ _ 0 j

/-- The one row of the second bias block, at every point, is the second bias vector. -/
theorem blk_b2 (c : Dev nD) (t : Fin cfg0.N) :
    (fun j : Fin 10 => iblk m c 4 t (ix2 (0 : Fin 1) j)) = fun j => (m ((c : Thread nD τ).loc main_arg4)) (ix1 j) := by
  obtain ⟨_, _, _, _, f20, f21, _, _, f40, f41, _, _⟩ := index_facts t
  funext j
  refine Eq.trans ?_ (bias2_entry m c j)
  show V m c main_v1 (((cfg0.win 4).blk t).view.emb (ix2 (0 : Fin 1) j)) = V m c main_v1 (ix2 (0 : Fin 1) j)
  refine congrArg _ (funext fun ax => Fin.ext ?_)
  match ax with
  | ⟨0, _⟩ => show win0_4.index t (0 : Fin 2) * 1 + 1 * (0 : Fin 1).val = (0 : Fin 1).val; rw [f40]; rfl
  | ⟨1, _⟩ => show win0_4.index t (1 : Fin 2) * 10 + 1 * j.val = j.val; rw [f41]; omega

/-- WHAT POINT `t` WRITES BACK is block `t` of `net` of the arrays as the launch finds them. -/
theorem flushed_eq (c : Dev nD) (t : Fin cfg0.N) :
    (dats m 0 c).flushed 5 t = ((cfg0.win 5).blk t).view.read (Elt Ideal) (net (V m c main_arg0) (V m c main_arg1) (m ((c : Thread nD τ).loc main_arg2)) (V m c main_arg3) (m ((c : Thread nD τ).loc main_arg4))) := by
  have ht := point_lt t
  obtain ⟨_, _, _, _, _, _, _, _, _, _, f50, f51⟩ := index_facts t
  refine (Cert.KernelIdeal.Value.flushed5_A m c t).trans ?_
  refine (congrArg ((cfg0.win 5).cut (grid0.coords t)) (block_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t))).trans ?_
  funext y
  obtain ⟨r, q, rfl⟩ : ∃ (r : Fin 16384) (q : Fin 10), y = ix2 r q := ⟨y 0, y 1, eq_ix2 y⟩
  have hr : 16384 * t.val + r.val < 1048576 := by have := r.isLt; omega
  have hemb : ((cfg0.win 5).blk t).view.emb (ix2 r q) = ix2 (⟨16384 * t.val + r.val, hr⟩ : Fin 1048576) q :=
    funext fun ax => Fin.ext (by
      match ax with
      | ⟨0, _⟩ => show win0_5.index t (0 : Fin 2) * 16384 + 1 * r.val = 16384 * t.val + r.val; rw [f50]; omega
      | ⟨1, _⟩ => show win0_5.index t (1 : Fin 2) * 10 + 1 * q.val = q.val; rw [f51]; omega)
  show blockOut (iblk m c 0 t) (iblk m c 1 t) (iblk m c 2 t) (iblk m c 3 t) (iblk m c 4 t) (ix2 r q)
    = (net (V m c main_arg0) (V m c main_arg1) (m ((c : Thread nD τ).loc main_arg2)) (V m c main_arg3) (m ((c : Thread nD τ).loc main_arg4))) (((cfg0.win 5).blk t).view.emb (ix2 r q))
  rw [hemb]
  unfold blockOut net
  exact mlp_congr _ _ _ _ _ _ _ _ _ _ _ _ _ (fun k => blk_x m c t r k hr) (blk_W1 m c t) (blk_b1 m c t) (blk_W2 m c t) (blk_b2 m c t)

/-- An index of the result is in point `t`'s block iff each coordinate is in the block's range on its axis. -/
theorem mem_blk (t : Fin cfg0.N) (i : S1048576x10.Idx) :
    i ∈ ((cfg0.win 5).blk t).view.set ↔ ∀ a : Fin 2, win0_5.index t a * S16384x10.size a ≤ (i a).val ∧ (i a).val < win0_5.index t a * S16384x10.size a + S16384x10.size a := by
  show i ∈ ((View.whole main_v2).slice (win0_5.rect t)).set ↔ _
  rw [View.set_slice_whole, Rect.mem_set_unit]
  exact Iff.rfl

/-- Every index of the result is in some point's block: row `r` is in block `r / 16384`. -/
theorem cover (i : S1048576x10.Idx) : ∃ t : Fin cfg0.N, (cfg0.win 5).flush t = true ∧ i ∈ ((cfg0.win 5).blk t).view.set := by
  have hi0 : (i 0).val < 1048576 := idx2_lt0 i
  have hi1 : (i 1).val < 10 := idx2_lt1 i
  obtain ⟨t, ht⟩ : ∃ t : Fin cfg0.N, t.val = (i 0).val / 16384 :=
    ⟨⟨(i 0).val / 16384, by rw [show cfg0.N = 64 from N_0]; omega⟩, rfl⟩
  obtain ⟨_, _, _, _, _, _, _, _, _, _, f50, f51⟩ := index_facts t
  refine ⟨t, flush0_5 t, ?_⟩
  rw [mem_blk]
  intro a
  match a with
  | ⟨0, _⟩ =>
    show win0_5.index t (0 : Fin 2) * 16384 ≤ (i 0).val ∧ (i 0).val < win0_5.index t (0 : Fin 2) * 16384 + 16384
    rw [f50, ht]; omega
  | ⟨1, _⟩ =>
    show win0_5.index t (1 : Fin 2) * 10 ≤ (i 1).val ∧ (i 1).val < win0_5.index t (1 : Fin 2) * 10 + 10
    rw [f51]; omega

/-- THE RESULT ARRAY after the run is `net` of the argument arrays. -/
theorem final (c : Dev nD) : (dats m 0 c).arrAt 5 cfg0.N = (net (m ((c : Thread nD τ).loc main_arg0)) (m ((c : Thread nD τ).loc main_arg1)) (m ((c : Thread nD τ).loc main_arg2)) (m ((c : Thread nD τ).loc main_arg3)) (m ((c : Thread nD τ).loc main_arg4))) :=
  ((dats m 0 c).arrAt_eq_of_cover 5 (net (V m c main_arg0) (V m c main_arg1) (m ((c : Thread nD τ).loc main_arg2)) (V m c main_arg3) (m ((c : Thread nD τ).loc main_arg4))) (fun t _ => flushed_eq m c t) cover).trans
    (by rw [V_main_arg0, V_main_arg1, V_main_arg3])

/-- The kernel's run, read: every weakly fair execution terminates with the result array at `net` of the arguments and
    the arguments unchanged. -/
theorem run : θ_run defs (onTc (τ := τ) (main (F := Ideal))) ⟨m, fun _ => 0, ρ⟩ fun r => ∀ c : Dev nD,
      r.2.mem ((c : Thread nD τ).loc main_v2) = (net (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Perceptron

end
-- ==== Proof.Reference.lean ====
/-
  The reference program's result is `net` of its arguments.  Its last stage is a sum of a matrix product and a
  broadcast bias; the product's left operand is the maximum with a broadcast zero of a matrix product plus a broadcast
  bias.  Read at an index `(r, o)` through the generated one-operation-at-a-time lemmas, each product is the sum over
  its contracted axis, each broadcast bias is the bias vector at the column, the broadcast zero is the zero word: the
  perceptron of row `r` at column `o`.
-/
import proofs.«171313_j22256520528694_2_alg».proof.Proof.Gen.ReferenceIdeal.Read
import proofs.«171313_j22256520528694_2_alg».proof.Proof.Spec

noncomputable section

namespace Cert.Perceptron

open Idealize.ShloMosaic Idealize.ShloMosaic.ValueIdx Cert.ReferenceIdeal Cert.ReferenceIdeal.Read

/-- The hidden layer's stage at row `r`, unit `j`. -/
theorem ref_hidden (x0 : Vec Ideal S1048576x64 .f32) (x1 : Vec Ideal S64x32 .f32) (x2 : Vec Ideal S32 .f32)
    (r : Fin 1048576) (j : Fin 32) :
    val_main_v4 (F := Ideal) x0 x1 x2 (ix2 r j) = hidden x0 x1 (fun j => x2 (ix1 j)) r j := by
  have el : ∀ k : Fin 64, lidx_main_v0 (ix2 r j) k = ix2 r k := fun k => funext fun a => Fin.ext (by
    match a with | ⟨0, _⟩ => rfl | ⟨1, _⟩ => rfl)
  have er : ∀ k : Fin 64, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [el, er, eb]
  rfl

/-- THE REFERENCE'S RESULT is `net` of the five arguments. -/
theorem ref_eq (x0 : Vec Ideal S1048576x64 .f32) (x1 : Vec Ideal S64x32 .f32) (x2 : Vec Ideal S32 .f32)
    (x3 : Vec Ideal S32x10 .f32) (x4 : Vec Ideal S10 .f32) :
    val_main_v8 (F := Ideal) x0 x1 x2 x3 x4 = net x0 x1 x2 x3 x4 := by
  funext i
  obtain ⟨r, o, rfl⟩ : ∃ (r : Fin 1048576) (o : Fin 10), i = ix2 r o := ⟨i 0, i 1, eq_ix2 i⟩
  have el : ∀ k : Fin 32, lidx_main_v5 (ix2 r o) k = ix2 r k := fun k => funext fun a => Fin.ext (by
    match a with | ⟨0, _⟩ => rfl | ⟨1, _⟩ => rfl)
  have er : ∀ k : Fin 32, ridx_main_v5 (ix2 r o) k = ix2 k o := fun k => funext fun a => Fin.ext (by
    match a with | ⟨0, _⟩ => rfl | ⟨1, _⟩ => rfl)
  have eb : idx_main_v6 (idx_main_v7 (ix2 r o)) = ix1 o := funext fun a => Fin.ext (by
    match a with | ⟨0, _⟩ => rfl)
  rw [val_main_v8_apply, val_main_v5_apply, val_main_v7_apply, val_main_v6_apply]
  simp only [el, er, eb, ref_hidden]
  rfl

end Cert.Perceptron

end
-- ==== Proof.lean ====
/-
  The kernel computes, for every row of `x` : [1048576, 64], a perceptron with one hidden layer:

      h = max (x · W1 + b1) 0        (32 hidden units)
      y = h · W2 + b2                (10 outputs)

  in 64 blocks of 16384 rows, each block in eight chunks of 2048 rows, rounding the operands of both products to bf16
  on the way; the reference computes the same two products, sums and maximum on whole arrays.  Over the extended reals a
  change of float format is the identity and a matrix product is the plain sum over the contracted axis, whatever the
  tiling, so both programs end with the result array at ONE function of the five argument arrays, `Cert.Perceptron.net`:
  entry `(r, o)` is `Σ j, max (Σ k, x r k · W1 k j + b1 j) 0 · W2 j o + b2 o`.  No law of the extended reals beyond the
  definitions is used, so the finiteness of the inputs is never opened.

  The modules: Proof/Spec (the function, and that its value on a row reads that row only), Proof/Payload (what one chunk's
  store holds, at an index), Proof/Block (the eight chunks of a grid point make the block's perceptron), Proof/Array (the 64
  blocks make `net`; the kernel's run), Proof/Reference (the reference's result is `net`).  The three frame claims are
  the generated frame runs; the idealization rewrote nothing, so `preserves` is `True`.
-/
import proofs.«171313_j22256520528694_2_alg».proof.Defs
import proofs.«171313_j22256520528694_2_alg».proof.Proof.Gen.Kernel
import proofs.«171313_j22256520528694_2_alg».proof.Proof.Gen.Kernel.Frame
import proofs.«171313_j22256520528694_2_alg».proof.Proof.Gen.KernelIdeal
import proofs.«171313_j22256520528694_2_alg».proof.Proof.Gen.KernelIdeal.Frame
import proofs.«171313_j22256520528694_2_alg».proof.Proof.Gen.KernelIdeal.Value
import proofs.«171313_j22256520528694_2_alg».proof.Proof.Gen.ReferenceIdeal
import proofs.«171313_j22256520528694_2_alg».proof.Proof.Gen.ReferenceIdeal.Run
import proofs.«171313_j22256520528694_2_alg».proof.Proof.Gen.ReferenceIdeal.Read
import proofs.«171313_j22256520528694_2_alg».proof.Proof.Gen.Pre_finite_inputs
import proofs.«171313_j22256520528694_2_alg».proof.Proof.Array
import proofs.«171313_j22256520528694_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the result array at `net` of the argument arrays, which agree. -/
theorem algebraic : Cert.algebraic_KernelIdeal_ReferenceIdeal := by
  intro m ρ m' ρ' _ hagree
  refine ⟨fun c => Cert.Perceptron.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Perceptron.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Perceptron.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
